-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1000000 : Shape := ⟨1, ![1000000]⟩
abbrev S128x128 : Shape := ⟨2, ![128, 128]⟩
abbrev S128 : Shape := ⟨1, ![128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S1000000x128 .f32) (main_arg1 : IVec S1000000 32) (main_arg2 : FVec F S128x128 .f32) (main_arg3 : FVec F S128 .f32) (main_arg4 : FVec F S128 .f32) (main_arg5 : FVec F S128 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S1000000x128 : Shape := ⟨2, ![1000000, 128]⟩
abbrev S1000000 : Shape := ⟨1, ![1000000]⟩
abbrev S128x128 : Shape := ⟨2, ![128, 128]⟩
abbrev S128 : Shape := ⟨1, ![128]⟩
abbrev S_ : Shape := ⟨0, ![]⟩
abbrev S1x128 : Shape := ⟨2, ![1, 128]⟩
abbrev S8000x128 : Shape := ⟨2, ![8000, 128]⟩
abbrev S8000 : Shape := ⟨1, ![8000]⟩
abbrev S8000x1 : Shape := ⟨2, ![8000, 1]⟩

abbrev nBuf : Space → Nat
  | .hbm => 25
  | .vmem => 8
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S1x128, .f32⟩
  | .hbm, ⟨9, _⟩ => ⟨S_, .f32⟩
  | .hbm, ⟨10, _⟩ => ⟨S1x128, .f32⟩
  | .hbm, ⟨11, _⟩ => ⟨S1x128, .f32⟩
  | .hbm, ⟨12, _⟩ => ⟨S128x128, .f32⟩
  | .hbm, ⟨13, _⟩ => ⟨S128x128, .f32⟩
  | .hbm, ⟨14, _⟩ => ⟨S128x128, .bf16⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S128, .f32⟩
  | .hbm, ⟨20, _⟩ => ⟨S128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S1000000x128, .f32⟩
  | .local _ .vmem, ⟨0, _⟩ => ⟨S8000x128, .f32⟩
  | .local _ .vmem, ⟨1, _⟩ => ⟨S8000x128, .f32⟩
  | .local _ .vmem, ⟨2, _⟩ => ⟨S128x128, .bf16⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S8000x128, .f32⟩
  | .local _ .vmem, ⟨7, _⟩ => ⟨S8000x128, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S128x128_S128_d0 : S128x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S128x128_0_1 : S1x128.BroadcastsInDim S128x128 (![0, 1] : Fin 2 → Fin S128x128.rank)
  bitsLt_bf16_f32 : FTy.bits .bf16 < FTy.bits .f32
  reducesTo_S128_S_d0 : S128.ReducesTo [0] S_
  bcast_S_S128 : S_.BroadcastsInDim S128 (![] : Fin 0 → Fin S128.rank)
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  reduces_S8000x128_S8000 : S8000x128.Reduces [1] S8000
  shapeCasts_S8000_S8000x1 : S8000.ShapeCasts S8000x1
  broadcasts_S8000x1_S8000x128 : S8000x1.Broadcasts S8000x128
  dot_S8000x128_S128x128_S8000x128_1_1_0_0_n_n_wf : DotDims.WF S8000x128 S128x128 S8000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S1000000x128.size a
  hwx0_0 : ∀ i : grid0.Coords, EltTy.bits .f32 = 32 ∨ (Rect.block (s := S1000000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x128.size a ≤ S1000000x128.size a
  hwx0_5 : ∀ i : grid0.Coords, EltTy.bits .f32 = 32 ∨ (Rect.block (s := S1000000x128) S8000x128.size (cc0_transform_5 i) (hinb0_5 i)).WholeWords (EltTy.packing .f32)

variable [Facts₀]

def dot_S8000x128_S128x128_S8000x128_1_1_0_0_n_n : DotDims S8000x128 S128x128 S8000x128 where
  lhsContracting := [1]
  rhsContracting := [1]
  lhsNonContracting := [0]
  rhsNonContracting := [0]
  lhsBatch := []
  rhsBatch := []
  wf := dot_S8000x128_S128x128_S8000x128_1_1_0_0_n_n_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S8000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1000000x128 : Shape := ⟨2, ![1000000, 128]⟩
abbrev S1000000 : Shape := ⟨1, ![1000000]⟩
abbrev S128x128 : Shape := ⟨2, ![128, 128]⟩
abbrev S128 : Shape := ⟨1, ![128]⟩
abbrev S1x128 : Shape := ⟨2, ![1, 128]⟩
abbrev S_ : Shape := ⟨0, ![]⟩
abbrev S1000000x1 : Shape := ⟨2, ![1000000, 1]⟩

abbrev nBuf : Space → Nat
  | .hbm => 46
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S1000000x128, .f32⟩
  | .hbm, ⟨7, _⟩ => ⟨S1x128, .f32⟩
  | .hbm, ⟨8, _⟩ => ⟨S1000000x128, .f32⟩
  | .hbm, ⟨9, _⟩ => ⟨S1000000x128, .f32⟩
  | .hbm, ⟨10, _⟩ => ⟨S_, .f32⟩
  | .hbm, ⟨11, _⟩ => ⟨S1000000, .f32⟩
  | .hbm, ⟨12, _⟩ => ⟨S1000000x1, .f32⟩
  | .hbm, ⟨13, _⟩ => ⟨S_, .f32⟩
  | .hbm, ⟨14, _⟩ => ⟨S1000000x1, .f32⟩
  | .hbm, ⟨15, _⟩ => ⟨S1000000x1, .f32⟩
  | .hbm, ⟨16, _⟩ => ⟨S1000000x128, .f32⟩
  | .hbm, ⟨17, _⟩ => ⟨S1000000x128, .f32⟩
  | .hbm, ⟨18, _⟩ => ⟨S1000000x128, .f32⟩
  | .hbm, ⟨19, _⟩ => ⟨S_, .f32⟩
  | .hbm, ⟨20, _⟩ => ⟨S1000000, .f32⟩
  | .hbm, ⟨21, _⟩ => ⟨S1000000x1, .f32⟩
  | .hbm, ⟨22, _⟩ => ⟨S_, .f32⟩
  | .hbm, ⟨23, _⟩ => ⟨S1000000x1, .f32⟩
  | .hbm, ⟨24, _⟩ => ⟨S1000000x1, .f32⟩
  | .hbm, ⟨25, _⟩ => ⟨S1000000x128, .f32⟩
  | .hbm, ⟨26, _⟩ => ⟨S1000000x128, .f32⟩
  | .hbm, ⟨27, _⟩ => ⟨S_, .f32⟩
  | .hbm, ⟨28, _⟩ => ⟨S1000000x1, .f32⟩
  | .hbm, ⟨29, _⟩ => ⟨S1000000x1, .f32⟩
  | .hbm, ⟨30, _⟩ => ⟨S1000000x1, .f32⟩
  | .hbm, ⟨31, _⟩ => ⟨S1000000x128, .f32⟩
  | .hbm, ⟨32, _⟩ => ⟨S1000000x128, .f32⟩
  | .hbm, ⟨33, _⟩ => ⟨S1x128, .f32⟩
  | .hbm, ⟨34, _⟩ => ⟨S1000000x128, .f32⟩
  | .hbm, ⟨35, _⟩ => ⟨S1000000x128, .f32⟩
  | .hbm, ⟨36, _⟩ => ⟨S1x128, .f32⟩
  | .hbm, ⟨37, _⟩ => ⟨S1000000x128, .f32⟩
  | .hbm, ⟨38, _⟩ => ⟨S1000000x128, .f32⟩
  | .hbm, ⟨39, _⟩ => ⟨S_, .f32⟩
  | .hbm, ⟨40, _⟩ => ⟨S1000000x128, .f32⟩
  | .hbm, ⟨41, _⟩ => ⟨S1000000x128, .i1⟩
  | .hbm, ⟨42, _⟩ => ⟨S_, .f32⟩
  | .hbm, ⟨43, _⟩ => ⟨S1000000x128, .f32⟩
  | .hbm, ⟨44, _⟩ => ⟨S1000000x128, .f32⟩
  | .hbm, ⟨45, _⟩ => ⟨S1000000x128, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  reducesTo_S1000000x128_S1000000_d1 : S1000000x128.ReducesTo [1] S1000000
  h_S_ : 0 < S_.numel
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1000000x1_S1000000x128_0_1 : S1000000x1.BroadcastsInDim S1000000x128 (![0, 1] : Fin 2 → Fin S1000000x128.rank)
  bcast_S_S1000000x128 : S_.BroadcastsInDim S1000000x128 (![] : Fin 0 → Fin S1000000x128.rank)
  dot_S1000000x128_S128x128_S1000000x128_1_1_0_0_n_n_wf : DotDims.WF S1000000x128 S128x128 S1000000x128 [1] [1] [0] [0] [] []

variable [Facts₀]

def dot_S1000000x128_S128x128_S1000000x128_1_1_0_0_n_n : DotDims S1000000x128 S128x128 S1000000x128 where
  lhsContracting := [1]
  rhsContracting := [1]
  lhsNonContracting := [0]
  rhsNonContracting := [0]
  lhsBatch := []
  rhsBatch := []
  wf := dot_S1000000x128_S128x128_S1000000x128_1_1_0_0_n_n_wf

class Facts : Prop extends Facts₀ where

variable [Facts]
-- ==== Proof.Spec.lean ====
/-
  Row-wise layer normalisation of a linear layer, followed by a leaky rectifier: the result as ONE function of the
  argument arrays, and the law that joins the two ways of centring a row.

  For a row `x` of the input (128 features), the weights `W` (128 outputs by 128 features) and the bias `b`, put
  `h o = ∑ k, x k * W o k + b o`. The layer-normalised row is `d o * rsqrt (mean (d²) + ε) * γ o + β o` where
  `d o = h o - mean h` is the centred row, and the output is `y` where `y ≥ 0` and `0.2 * y` elsewhere.

  The centred row can be computed in two ways. PLAINLY: form `h`, subtract its mean over the 128 outputs. FOLDED
  INTO THE WEIGHTS: subtract from every column of `W` that column's mean over the outputs, and from `b` its mean,
  and apply the linear layer with those: `∑ k, x k * (W o k - mean_o' W o' k) + (b o - mean b)`. Over the reals the
  two agree, because `∑ k, x k * (mean_o' W o' k) = mean_o' (∑ k, x k * W o' k)` — a sum swapped with a sum and a
  factor moved across a sum. On the extended reals that step fails at the infinities, so the law is stated for
  rows, weights and biases whose entries are all real numbers.

  Everything is stated per ROW (`Fin 128 → EReal`): the normalisation and both centrings of row `n` of the result
  read row `n` of the input and nothing else of it, which is what lets a result computed block of rows by block of
  rows be the whole-array function.
-/
import Idealize.ShloMosaic.PureOps.Ideal
import Idealize.ShloMosaic.PureOps.Ideal.Laws
import Idealize.ShloMosaic.Lib.ValueIdx

noncomputable section

namespace Cert.RowNorm

open Idealize.ShloMosaic Idealize.ShloMosaic.ValueIdx

/-- The pattern of `128.0`, the divisor of every mean here, denotes the real number `128`. -/
theorem ofBits_128 : Ideal.ofBits .f32 0x43000000#32 = ((128 : ℝ) : EReal) := by
  simp [Ideal.ofBits, Ideal.ieee, -EReal.coe_mul]; norm_num

/-- A finite sum of real numbers, each read as an extended real, is the real sum read as an extended real. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- THE LAW, over the reals, with `c` standing for `1/128`: centring folded into the weights and the bias is the
    linear layer's output minus `c` times its sum over the outputs. The one step that is not rearrangement is
    `∑ k, x k * (∑ o', W o' k) = ∑ o', ∑ k, x k * W o' k`: distribute `x k` over the inner sum, then swap the sums. -/
theorem center_real {K O : Type} [Fintype K] [Fintype O] (x : K → ℝ) (W : O → K → ℝ) (b : O → ℝ) (c : ℝ) (o : O) :
    (∑ k, x k * (W o k - (∑ o', W o' k) * c)) + (b o - (∑ o', b o') * c)
      = ((∑ k, x k * W o k) + b o) - (∑ o', ((∑ k, x k * W o' k) + b o')) * c := by
  have h1 : ∑ k, x k * (W o k - (∑ o', W o' k) * c) = (∑ k, x k * W o k) - (∑ o', ∑ k, x k * W o' k) * c := by
    simp only [mul_sub, Finset.sum_sub_distrib]
    congr 1
    rw [Finset.sum_comm, Finset.sum_mul]
    refine Finset.sum_congr rfl fun k _ => ?_
    rw [← Finset.mul_sum, mul_assoc]
  rw [h1, Finset.sum_add_distrib]
  ring

/-- The leaky rectifier with slope `0.2` below zero: `y` where `y ≥ 0`, else the pattern of `0.2` times `y`. -/
def leaky (y : EReal) : EReal :=
  Scalar.select (Ideal.cmp .oge y (Ideal.ofBits .f32 0x00000000#32)) y (Ideal.ofBits .f32 0x3E4CCCCD#32 * y)

/-- A CENTRED row `d` normalised, scaled, shifted and rectified, at output `o`: `d o` times the reciprocal square root
    of the mean of `d`'s squares plus `ε` (the pattern of `1e-5`), times `γ o`, plus `β o`, through `leaky`. -/
def normRow (d γ β : Fin 128 → EReal) (o : Fin 128) : EReal :=
  leaky (d o * Ideal.rsqrt (Ideal.div (∑ k : Fin 128, d k * d k) (Ideal.ofBits .f32 0x43000000#32)
    + Ideal.ofBits .f32 0x3727C5AC#32) * γ o + β o)

/-- The centred row with the centring FOLDED into the weights and the bias: the linear layer applied with each
    weight less its column's mean over the outputs, and each bias less the biases' mean. -/
def cenFolded (x : Fin 128 → EReal) (W : Fin 128 → Fin 128 → EReal) (b : Fin 128 → EReal) (o : Fin 128) : EReal :=
  (∑ k : Fin 128, x k * (W o k - Ideal.div (∑ o' : Fin 128, W o' k) (Ideal.ofBits .f32 0x43000000#32)))
    + (b o - Ideal.div (∑ o' : Fin 128, b o') (Ideal.ofBits .f32 0x43000000#32))

/-- The centred row PLAINLY: the linear layer's output less its mean over the outputs. -/
def cenPlain (x : Fin 128 → EReal) (W : Fin 128 → Fin 128 → EReal) (b : Fin 128 → EReal) (o : Fin 128) : EReal :=
  ((∑ k : Fin 128, x k * W o k) + b o)
    - Ideal.div (∑ o' : Fin 128, ((∑ k : Fin 128, x k * W o' k) + b o')) (Ideal.ofBits .f32 0x43000000#32)

/-- THE LAW on the extended reals: where every entry of the row, the weights and the bias is a real number, the two
    centrings are one row. Division by `128` is the product with `1/128`; every term is then the image of a real
    one, and the real law closes it. -/
theorem cen_eq (x : Fin 128 → EReal) (W : Fin 128 → Fin 128 → EReal) (b : Fin 128 → EReal)
    (hx : ∀ k, ∃ r : ℝ, x k = r) (hW : ∀ o k, ∃ r : ℝ, W o k = r) (hb : ∀ o, ∃ r : ℝ, b o = r) :
    cenFolded x W b = cenPlain x W b := by
  choose x' hx' using hx
  choose W' hW' using hW
  choose b' hb' using hb
  obtain rfl : x = fun k => (x' k : EReal) := funext hx'
  obtain rfl : W = fun o k => (W' o k : EReal) := funext fun o => funext (hW' o)
  obtain rfl : b = fun o => (b' o : EReal) := funext hb'
  funext o
  unfold cenFolded cenPlain
  simp only [ofBits_128, Ideal.div_coe (by norm_num : (128 : ℝ) ≠ 0), coe_sum, ← EReal.coe_mul, ← EReal.coe_sub,
    ← EReal.coe_add]
  exact congrArg _ (center_real x' W' b' (1 / 128) o)

/-- Row `n` of an array of rows of 128, the 128-by-128 weights, and a vector of 128, by coordinates. -/
def row {R : Nat} (X : (⟨2, ![R, 128]⟩ : Shape).Idx → EReal) (n : Fin R) : Fin 128 → EReal := fun k => X (ix2 n k)
def mat (W : (⟨2, ![128, 128]⟩ : Shape).Idx → EReal) : Fin 128 → Fin 128 → EReal := fun o k => W (ix2 o k)
def vec (b : (⟨1, ![128]⟩ : Shape).Idx → EReal) : Fin 128 → EReal := fun o => b (ix1 o)

/-- THE RESULT as one function of the five float arguments: entry `(n, o)` is row `n` of the input, centred plainly
    against the weights and the bias, normalised with `γ` and `β`, at `o`. -/
def result (X : (⟨2, ![1000000, 128]⟩ : Shape).Idx → EReal) (W : (⟨2, ![128, 128]⟩ : Shape).Idx → EReal)
    (B Γ Β : (⟨1, ![128]⟩ : Shape).Idx → EReal) : (⟨2, ![1000000, 128]⟩ : Shape).Idx → EReal := fun i =>
  normRow (cenPlain (row X (i 0)) (mat W) (vec B)) (vec Γ) (vec Β) (i 1)

end Cert.RowNorm

end
-- ==== Proof.Finite.lean ====
/-
  The precondition read back: under it every entry of the input, the weights and the bias is a real number.

  The precondition says, of each float argument, that every entry's absolute value is below the pattern of `+∞`, all
  five statements joined by `and`. On the extended reals `|x| = max x (-x)`, and `max x (-x) < ⊤` fails exactly at the
  two infinities, so it leaves the real numbers. The law that joins the two programs moves a factor across a sum and
  swaps two sums, which needs the entries of the input, the weights and the bias to be real; the scale and the shift
  enter both programs the same way and need nothing.
-/
import proofs.«157562_j49752901157256_2_alg».proof.Pre_finite_inputs
import proofs.«157562_j49752901157256_2_alg».proof.Proof.Gen.Pre_finite_inputs
import Idealize.ShloMosaic.Lib.ReduceAll
import Idealize.ShloMosaic.PureOps.Ideal
import Idealize.ShloMosaic.Lib.ValueIdx

noncomputable section

namespace Cert.RowNorm.Finite

open Cert.Pre_finite_inputs Idealize.ShloMosaic Idealize.ShloMosaic.ValueIdx

/-- The pattern of `+∞` denotes the top of the extended reals. -/
theorem ofBits_inf : Ideal.ofBits .f32 0x7F800000#32 = ⊤ := by simp [Ideal.ofBits, Ideal.ieee]

/-- An extended real whose absolute value compares below `+∞` is a real number: at `⊥` and at `⊤` the absolute
    value is `⊤`, which is not below itself. -/
theorem real_of_abs_lt_top (x : EReal) (h : Ideal.cmp .olt (max x (-x)) (Ideal.ofBits .f32 0x7F800000#32) = 1#1) :
    ∃ r : ℝ, x = r := by
  rw [ofBits_inf] at h
  induction x using EReal.rec with
  | bot => exact absurd h (by simp [Ideal.cmp])
  | coe r => exact ⟨r, rfl⟩
  | top => exact absurd h (by simp [Ideal.cmp])

/-- A shape with no axis has one index. -/
instance : Subsingleton S_.Idx := ⟨fun a b => funext fun d => d.elim0⟩

/-- THE PRECONDITION'S FIRST THREE CONJUNCTS, entry by entry: the input, the weights and the bias hold real numbers.
    The conjunction is nested to the left, the input's statement innermost; each `all` over an array gives its
    statement at every index. -/
theorem reals_of_pre [Facts] (a0 : FVec Ideal S1000000x128 .f32) (a1 : IVec S1000000 32) (a2 : FVec Ideal S128x128 .f32)
    (a3 a4 a5 : FVec Ideal S128 .f32) (h : fn (F := Ideal) a0 a1 a2 a3 a4 a5 = fun _ => 1#1) :
    (∀ i, ∃ r : ℝ, a0 i = r) ∧ (∀ i, ∃ r : ℝ, a2 i = r) ∧ (∀ i, ∃ r : ℝ, a3 i = r) := by
  have h0 := congrFun h ix0
  dsimp only [fn, fn_part1] at h0
  obtain ⟨h1, -⟩ := IntOp.andi_eq_one.1 h0
  obtain ⟨h2, -⟩ := IntOp.andi_eq_one.1 h1
  obtain ⟨h3, hb⟩ := IntOp.andi_eq_one.1 h2
  obtain ⟨hx, hW⟩ := IntOp.andi_eq_one.1 h3
  exact ⟨fun i => real_of_abs_lt_top _ (Host.reduce_andi_all _ _ _ _ _ hx i),
    fun i => real_of_abs_lt_top _ (Host.reduce_andi_all _ _ _ _ _ hW i),
    fun i => real_of_abs_lt_top _ (Host.reduce_andi_all _ _ _ _ _ hb i)⟩

end Cert.RowNorm.Finite

end
-- ==== Proof.RefValue.lean ====
/-
  The reference program's result is the specification's `result` of its five float arguments.

  The reference computes, for every row `n`: the linear layer `h n o = ∑ k, x n k * W o k + b o`; the row's mean,
  the sum of `h n ·` over the 128 outputs divided by `128`; the centred row `h n o - mean n`; the mean of the centred
  row's squares; and from these the normalised, scaled, shifted and rectified entry. Each stage below reads one of
  these at coordinates `(n, o)` (or `(n, 0)` for a per-row quantity kept as a column), and the last puts them together.
  Every host sum starts from the zero pattern, which denotes `0` and is dropped.
-/
import proofs.«157562_j49752901157256_2_alg».proof.Proof.Spec
import proofs.«157562_j49752901157256_2_alg».proof.Proof.Gen.ReferenceIdeal.Read

noncomputable section

namespace Cert.ReferenceIdeal.RefValue

open Cert.ReferenceIdeal Cert.ReferenceIdeal.Gen Cert.ReferenceIdeal.Read
open Idealize.ShloMosaic Idealize.ShloMosaic.ValueIdx Cert.RowNorm

variable (x0 : (⟨S1000000x128, .f32⟩ : BufTy).Contents (Elt Ideal)) (x2 : (⟨S128x128, .f32⟩ : BufTy).Contents (Elt Ideal))
  (x3 x4 x5 : (⟨S128, .f32⟩ : BufTy).Contents (Elt Ideal))

/-- The linear layer at `(n, o)`: row `n` of the input against row `o` of the weights, plus the bias at `o`. -/
theorem lin_apply (n : Fin 1000000) (o : Fin 128) :
    val_main_v3 (F := Ideal) x0 x2 x3 (ix2 n o) = (∑ k : Fin 128, row x0 n k * mat x2 o k) + vec x3 o := by
  rw [val_main_v3_apply, val_main_v0_apply, val_main_v2_apply, val_main_v1_apply]
  have e1 : ∀ k, lidx_main_v0 (ix2 n o) k = ix2 n k := fun k => funext fun a => Fin.ext (by
    match a with | ⟨0, _⟩ => rfl | ⟨1, _⟩ => rfl)
  have e2 : ∀ k, ridx_main_v0 (ix2 n o) k = ix2 o k := fun k => funext fun a => Fin.ext (by
    match a with | ⟨0, _⟩ => rfl | ⟨1, _⟩ => rfl)
  have e3 : idx_main_v1 (idx_main_v2 (ix2 n o)) = ix1 o := funext fun a => Fin.ext (by
    match a with | ⟨0, _⟩ => rfl)
  simp only [e1, e2, e3]
  rfl

/-- The row's mean, kept as the one-column entry `(n, 0)`: the sum of the linear layer over the outputs, over `128`. -/
theorem mean_apply (n : Fin 1000000) :
    val_main_v7 (F := Ideal) x0 x2 x3 (ix2 n (0 : Fin 1))
      = Ideal.div (∑ o : Fin 128, ((∑ k : Fin 128, row x0 n k * mat x2 o k) + vec x3 o)) (Ideal.ofBits .f32 0x43000000#32) := by
  rw [val_main_v7_apply, val_main_v5_apply, val_main_v4_apply, val_main_v6_apply, val_main_cst_0_apply, val_main_cst_apply]
  have e : ∀ k, idx_main_v4 (idx_main_v5 (ix2 n (0 : Fin 1))) k = ix2 n k := fun k => funext fun a => Fin.ext (by
    match a with | ⟨0, _⟩ => rfl | ⟨1, _⟩ => rfl)
  simp only [e, lin_apply]
  show Ideal.div (Ideal.ofBits .f32 0x00000000#32 + _) _ = _
  rw [Ideal.ofBits_zero_f32, zero_add]
  rfl

/-- The centred entry `(n, o)`, as the reference forms it for the variance: the linear layer less the row's mean. -/
theorem cen_apply (n : Fin 1000000) (o : Fin 128) :
    val_main_v9 (F := Ideal) x0 x2 x3 (ix2 n o) = cenPlain (row x0 n) (mat x2) (vec x3) o := by
  rw [val_main_v9_apply, val_main_v8_apply, lin_apply]
  have e : idx_main_v8 (ix2 n o) = ix2 n (0 : Fin 1) := funext fun a => Fin.ext (by
    match a with | ⟨0, _⟩ => rfl | ⟨1, _⟩ => rfl)
  rw [e, mean_apply]
  rfl

/-- The same centred entry, as the reference forms it a second time for the normalised value. -/
theorem cen_apply' (n : Fin 1000000) (o : Fin 128) :
    val_main_v16 (F := Ideal) x0 x2 x3 (ix2 n o) = cenPlain (row x0 n) (mat x2) (vec x3) o := by
  rw [val_main_v16_apply, val_main_v15_apply, lin_apply]
  have e : idx_main_v15 (ix2 n o) = ix2 n (0 : Fin 1) := funext fun a => Fin.ext (by
    match a with | ⟨0, _⟩ => rfl | ⟨1, _⟩ => rfl)
  rw [e, mean_apply]
  rfl

/-- The reciprocal square root of the row's variance plus `ε`, kept as the one-column entry `(n, 0)`. -/
theorem scale_apply (n : Fin 1000000) :
    val_main_v19 (F := Ideal) x0 x2 x3 (ix2 n (0 : Fin 1))
      = Ideal.rsqrt (Ideal.div (∑ k : Fin 128, cenPlain (row x0 n) (mat x2) (vec x3) k * cenPlain (row x0 n) (mat x2) (vec x3) k)
          (Ideal.ofBits .f32 0x43000000#32) + Ideal.ofBits .f32 0x3727C5AC#32) := by
  rw [val_main_v19_apply, val_main_v18_apply, val_main_v14_apply, val_main_v12_apply, val_main_v11_apply, val_main_v13_apply,
    val_main_v17_apply, val_main_cst_1_apply, val_main_cst_2_apply, val_main_cst_3_apply]
  have e : ∀ k, idx_main_v11 (idx_main_v12 (ix2 n (0 : Fin 1))) k = ix2 n k := fun k => funext fun a => Fin.ext (by
    match a with | ⟨0, _⟩ => rfl | ⟨1, _⟩ => rfl)
  simp only [e, val_main_v10_apply, cen_apply]
  show Ideal.rsqrt (Ideal.div (Ideal.ofBits .f32 0x00000000#32 + _) _ + _) = _
  rw [Ideal.ofBits_zero_f32, zero_add]
  rfl

/-- THE REFERENCE'S RESULT is the specification's function of the five float arguments, entry by entry. -/
theorem stage_eq : val_main_v32 (F := Ideal) x0 x2 x3 x4 x5 = result x0 x2 x3 x4 x5 := by
  funext i
  obtain ⟨n, o, rfl⟩ : ∃ (n : Fin 1000000) (o : Fin 128), i = ix2 n o := ⟨i 0, i 1, eq_ix2 i⟩
  have e20 : idx_main_v20 (ix2 n o) = ix2 n (0 : Fin 1) := funext fun a => Fin.ext (by
    match a with | ⟨0, _⟩ => rfl | ⟨1, _⟩ => rfl)
  have e23 : idx_main_v22 (idx_main_v23 (ix2 n o)) = ix1 o := funext fun a => Fin.ext (by
    match a with | ⟨0, _⟩ => rfl)
  have e26 : idx_main_v25 (idx_main_v26 (ix2 n o)) = ix1 o := funext fun a => Fin.ext (by
    match a with | ⟨0, _⟩ => rfl)
  have h27 : val_main_v27 (F := Ideal) x0 x2 x3 x4 x5 (ix2 n o)
      = cenPlain (row x0 n) (mat x2) (vec x3) o
          * Ideal.rsqrt (Ideal.div (∑ k : Fin 128, cenPlain (row x0 n) (mat x2) (vec x3) k * cenPlain (row x0 n) (mat x2) (vec x3) k)
              (Ideal.ofBits .f32 0x43000000#32) + Ideal.ofBits .f32 0x3727C5AC#32)
          * vec x4 o + vec x5 o := by
    rw [val_main_v27_apply, val_main_v24_apply, val_main_v21_apply, val_main_v20_apply, val_main_v23_apply, val_main_v22_apply,
      val_main_v26_apply, val_main_v25_apply, cen_apply', e20, scale_apply, e23, e26]
    rfl
  rw [val_main_v32_apply, val_main_v29_apply, val_main_v31_apply, val_main_v28_apply, val_main_v30_apply, val_main_cst_4_apply,
    val_main_cst_5_apply, h27]
  rfl

end Cert.ReferenceIdeal.RefValue

end
-- ==== Proof.LibColumn.lean ====
/-
  Two layout operations read at an index, for a per-row quantity kept as a column (a sum over the last axis with the
  reduced axis kept as a unit axis): the cast of a vector of `a` entries to an `a`-by-`1` column, and the broadcast of
  such a column across `b` columns. Both are stated over coordinates of literal extents.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to `[a, 1]` reads, at `(i, u)`, the operand at `i`, whatever the unit coordinate `u`: the two
    indices have the same row-major position, `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout
-- ==== Proof.KernelBody.lean ====
/-
  What the kernel's body stores, at an entry `(p, q)` of its block of 8000 rows.

  The body's one stored value splits into two parts. The CENTRED BLOCK: the block of input rows multiplied against
  the (already centred) weights, contracting the feature axis of both, plus the (already centred) bias row broadcast
  down the rows — at `(p, q)` this is `∑ k, x p k * w q k + b q`. The TAIL, a function of the centred block alone: the
  row sums of its squares kept as a column, divided by `128`, plus `ε`, the reciprocal square root, broadcast back
  across the row; the centred block times that, times the scale row, plus the shift row; and the leaky rectifier.
  At `(p, q)` the tail reads row `p` of the centred block and nothing else of it, and is the specification's
  `normRow` of that row at `q`.
-/
import proofs.«157562_j49752901157256_2_alg».proof.Proof.Spec
import proofs.«157562_j49752901157256_2_alg».proof.Proof.LibColumn
import proofs.«157562_j49752901157256_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen
open Idealize.ShloMosaic Idealize.ShloMosaic.ValueIdx Idealize.ShloMosaic.ColumnLayout Cert.RowNorm

/-- The centred block: the matrix product of the input block with the weights, both contracted over their
    feature axis, into a zero accumulator, plus the bias row broadcast down the rows. -/
def cenBlock (v0 : FVec Ideal S8000x128 .f32) (v2 : FVec Ideal S128x128 .bf16) (v5 : FVec Ideal S1x128 .f32) :
    FVec Ideal S8000x128 .f32 :=
  addf (matmul dot_S8000x128_S128x128_S8000x128_1_1_0_0_n_n none (truncf .bf16 v0 bitsLt_bf16_f32) (shapeCast S128x128 v2 shapeCasts_S128x128_S128x128)
      (constant S8000x128 .f32 0x00000000#32))
    (broadcastTo S8000x128 (shapeCast S1x128 v5 shapeCasts_S1x128_S1x128) broadcasts_S1x128_S8000x128)

/-- The value before the rectifier, from a centred block `c`, the scale row and the shift row. -/
def preact (c : FVec Ideal S8000x128 .f32) (v19 v23 : FVec Ideal S1x128 .f32) : FVec Ideal S8000x128 .f32 :=
  addf
    (mulf
      (mulf c
        (broadcastTo S8000x128
          (rsqrt (addf
            (divf (shapeCast S8000x1 (multiReduction .add [1] S8000 (mulf c c) 0x00000000#32 reduces_S8000x128_S8000 (.inl rfl) rfl)
                shapeCasts_S8000_S8000x1)
              (broadcast S8000x1 (Scalar.ofBits (F := Ideal) .f32 0x43000000#32)))
            (broadcast S8000x1 (Scalar.ofBits (F := Ideal) .f32 0x3727C5AC#32))))
          broadcasts_S8000x1_S8000x128))
      (broadcastTo S8000x128 (shapeCast S1x128 v19 shapeCasts_S1x128_S1x128) broadcasts_S1x128_S8000x128))
    (broadcastTo S8000x128 (shapeCast S1x128 v23 shapeCasts_S1x128_S1x128) broadcasts_S1x128_S8000x128)

/-- The tail: the value before the rectifier, kept where it is at least zero, else `0.2` times it. -/
def tailBlock (c : FVec Ideal S8000x128 .f32) (v19 v23 : FVec Ideal S1x128 .f32) : FVec Ideal S8000x128 .f32 :=
  select (cmpf .oge (preact c v19 v23) (broadcast S8000x128 (Scalar.ofBits (F := Ideal) .f32 0x00000000#32)))
    (preact c v19 v23)
    (mulf (broadcast S8000x128 (Scalar.ofBits (F := Ideal) .f32 0x3E4CCCCD#32)) (preact c v19 v23))

/-- The body's stored value is the tail of the centred block: the same operations, grouped. -/
theorem pay_split (v0 : FVec Ideal S8000x128 .f32) (v2 : FVec Ideal S128x128 .bf16) (v5 v19 v23 : FVec Ideal S1x128 .f32) :
    k0_pay1 (F := Ideal) v0 v2 v5 v19 v23 = tailBlock (cenBlock v0 v2 v5) v19 v23 := rfl

/-! ## The matrix product at an entry -/

theorem lhs_row (i : S8000x128.Idx) (r : dot_S8000x128_S128x128_S8000x128_1_1_0_0_n_n.contr.Idx) : (dot_S8000x128_S128x128_S8000x128_1_1_0_0_n_n.lhsIdx i r 0).val = (i 0).val := by
  unfold DotDims.lhsIdx
  rw [dif_neg (show ¬(0 : Fin S8000x128.rank) ∈ dot_S8000x128_S128x128_S8000x128_1_1_0_0_n_n.lhsBatch by decide),
    dif_pos (show (0 : Fin S8000x128.rank) ∈ dot_S8000x128_S128x128_S8000x128_1_1_0_0_n_n.lhsNonContracting by decide)]
  rfl
theorem lhs_feat (i : S8000x128.Idx) (r : dot_S8000x128_S128x128_S8000x128_1_1_0_0_n_n.contr.Idx) : (dot_S8000x128_S128x128_S8000x128_1_1_0_0_n_n.lhsIdx i r 1).val = (r ⟨0, by decide⟩).val :=
  dot_S8000x128_S128x128_S8000x128_1_1_0_0_n_n.lhsIdx_val_of_single rfl i r
theorem rhs_out (i : S8000x128.Idx) (r : dot_S8000x128_S128x128_S8000x128_1_1_0_0_n_n.contr.Idx) : (dot_S8000x128_S128x128_S8000x128_1_1_0_0_n_n.rhsIdx i r 0).val = (i 1).val := by
  unfold DotDims.rhsIdx
  rw [dif_neg (show ¬(0 : Fin S128x128.rank) ∈ dot_S8000x128_S128x128_S8000x128_1_1_0_0_n_n.rhsBatch by decide),
    dif_pos (show (0 : Fin S128x128.rank) ∈ dot_S8000x128_S128x128_S8000x128_1_1_0_0_n_n.rhsNonContracting by decide)]
  rfl
theorem rhs_feat (i : S8000x128.Idx) (r : dot_S8000x128_S128x128_S8000x128_1_1_0_0_n_n.contr.Idx) : (dot_S8000x128_S128x128_S8000x128_1_1_0_0_n_n.rhsIdx i r 1).val = (r ⟨0, by decide⟩).val :=
  dot_S8000x128_S128x128_S8000x128_1_1_0_0_n_n.rhsIdx_val_of_single rfl i r

/-- The centred block at `(p, q)`: row `p` of the input block against row `q` of the weights, summed over the 128
    features, plus the bias row at `q`. -/
theorem cenBlock_apply (v0 : FVec Ideal S8000x128 .f32) (v2 : FVec Ideal S128x128 .bf16) (v5 : FVec Ideal S1x128 .f32)
    (p : Fin 8000) (q : Fin 128) :
    cenBlock v0 v2 v5 (ix2 p q) = (∑ k : Fin 128, v0 (ix2 p k) * v2 (ix2 q k)) + v5 (ix2 (0 : Fin 1) q) := by
  unfold cenBlock
  refine congr (congrArg HAdd.hAdd ?_) ?_
  · refine (Ideal.matmul_constant_zero_apply dot_S8000x128_S128x128_S8000x128_1_1_0_0_n_n none _ _ (ix2 p q)).trans ?_
    rw [← Equiv.sum_comp (contrEquiv1 dot_S8000x128_S128x128_S8000x128_1_1_0_0_n_n 128 rfl rfl).symm]
    refine Finset.sum_congr rfl fun k _ => ?_
    have hk := contrEquiv1_symm_val dot_S8000x128_S128x128_S8000x128_1_1_0_0_n_n 128 rfl rfl k
    have el : dot_S8000x128_S128x128_S8000x128_1_1_0_0_n_n.lhsIdx (ix2 p q) ((contrEquiv1 dot_S8000x128_S128x128_S8000x128_1_1_0_0_n_n 128 rfl rfl).symm k) = ix2 p k := funext fun a => Fin.ext (by
      match a with
      | ⟨0, _⟩ => exact lhs_row _ _
      | ⟨1, _⟩ => exact (lhs_feat _ _).trans hk)
    have er : dot_S8000x128_S128x128_S8000x128_1_1_0_0_n_n.rhsIdx (ix2 p q) ((contrEquiv1 dot_S8000x128_S128x128_S8000x128_1_1_0_0_n_n 128 rfl rfl).symm k) = ix2 q k := funext fun a => Fin.ext (by
      match a with
      | ⟨0, _⟩ => exact rhs_out _ _
      | ⟨1, _⟩ => exact (rhs_feat _ _).trans hk)
    rw [el, er, shapeCast_self]
    rfl
  · rw [shapeCast_self]
    exact broadcastTo_1b_ab_apply _ _ p q

/-! ## The tail at an entry -/

/-- The row sum of the centred block's squares, kept as a column, at `(p, 0)`. -/
theorem sumsq_apply (c : FVec Ideal S8000x128 .f32) (p : Fin 8000) :
    shapeCast S8000x1 (multiReduction .add [1] S8000 (mulf c c) 0x00000000#32 reduces_S8000x128_S8000 (.inl rfl) rfl)
        shapeCasts_S8000_S8000x1 (ix2 p (0 : Fin 1))
      = ∑ k : Fin 128, c (ix2 p k) * c (ix2 p k) := by
  refine (shapeCast_a_a1_apply _ _ p (0 : Fin 1)).trans ?_
  refine (Ideal.multiReduction_add_single (mulf c c) 0x00000000#32 reduces_S8000x128_S8000 (.inl rfl) rfl (ix1 p)).trans ?_
  refine Finset.sum_congr rfl fun k _ => ?_
  have e : reduces_S8000x128_S8000.lift (ix1 p) k = ix2 p k := funext fun a => Fin.ext (by
    match a with | ⟨0, _⟩ => rfl | ⟨1, _⟩ => rfl)
  rw [e]
  rfl

/-- The value before the rectifier at `(p, q)`, from row `p` of the centred block. -/
theorem preact_apply (c : FVec Ideal S8000x128 .f32) (v19 v23 : FVec Ideal S1x128 .f32) (p : Fin 8000) (q : Fin 128) :
    preact c v19 v23 (ix2 p q)
      = c (ix2 p q) * Ideal.rsqrt (Ideal.div (∑ k : Fin 128, c (ix2 p k) * c (ix2 p k)) (Ideal.ofBits .f32 0x43000000#32)
          + Ideal.ofBits .f32 0x3727C5AC#32) * v19 (ix2 (0 : Fin 1) q) + v23 (ix2 (0 : Fin 1) q) := by
  unfold preact
  refine congr (congrArg HAdd.hAdd (congr (congrArg HMul.hMul (congrArg (c (ix2 p q) * ·) ?_)) ?_)) ?_
  · refine (broadcastTo_a1_ab_apply _ _ p q).trans ?_
    refine congrArg Ideal.rsqrt (congrArg (· + Ideal.ofBits .f32 0x3727C5AC#32) (congrArg (Ideal.div · (Ideal.ofBits .f32 0x43000000#32)) ?_))
    exact sumsq_apply c p
  · rw [shapeCast_self]
    exact broadcastTo_1b_ab_apply _ _ p q
  · rw [shapeCast_self]
    exact broadcastTo_1b_ab_apply _ _ p q

/-- THE BODY'S STORED VALUE at `(p, q)`: the specification's normalisation of the row `∑ k, x p k * w · k + b ·` at `q`. -/
theorem pay_apply (v0 : FVec Ideal S8000x128 .f32) (v2 : FVec Ideal S128x128 .bf16) (v5 v19 v23 : FVec Ideal S1x128 .f32)
    (p : Fin 8000) (q : Fin 128) :
    k0_pay1 (F := Ideal) v0 v2 v5 v19 v23 (ix2 p q)
      = normRow (fun o => (∑ k : Fin 128, v0 (ix2 p k) * v2 (ix2 o k)) + v5 (ix2 (0 : Fin 1) o))
          (fun o => v19 (ix2 (0 : Fin 1) o)) (fun o => v23 (ix2 (0 : Fin 1) o)) q := by
  rw [pay_split]
  show leaky (preact (cenBlock v0 v2 v5) v19 v23 (ix2 p q)) = _
  unfold normRow
  refine congrArg leaky ?_
  rw [preact_apply]
  simp only [cenBlock_apply]

end Cert.KernelIdeal.Body

end
-- ==== Proof.HostSide.lean ====
/-
  What the kernel's four small operands hold when the kernel starts, entry by entry, as functions of the arguments.

  Before the kernel is launched the host prepares: the CENTRED WEIGHTS, each weight less the mean of its column over
  the 128 outputs (the column's sum divided by `128`); the CENTRED BIAS as a row, each bias less the mean of the
  biases; and the scale and the shift as rows. Every host sum starts from the zero pattern, which denotes `0`.
-/
import proofs.«157562_j49752901157256_2_alg».proof.Proof.Spec
import proofs.«157562_j49752901157256_2_alg».proof.Proof.Gen.KernelIdeal.Frame
import Idealize.ShloMosaic.Lib.StableHlo.Run
import Idealize.ShloMosaic.PureOps.Ideal.Laws
import Idealize.ShloMosaic.Lib.ValueLayout

noncomputable section

namespace Cert.KernelIdeal.HostSide

open Cert.KernelIdeal Cert.KernelIdeal.Gen
open Idealize.ShloMosaic Idealize.ShloMosaic.TcCoe Idealize.ShloMosaic.ValueIdx Idealize.ShloMosaic.StableHlo Idealize.SL.Sem Cert.RowNorm

/-- A column's sum over the 128 outputs, as the host forms it. -/
theorem colsum_apply (W : S128x128.Idx → EReal) (k : Fin 128) :
    Host.reduceAdd (F := Ideal) (φ := .f32) W (constant (F := Ideal) S_ .f32 0x00000000#32) reducesTo_S128x128_S128_d0 h_S_ (ix1 k)
      = ∑ o' : Fin 128, W (ix2 o' k) := by
  simp only [Host.reduceAdd, Ideal.hostReduceAdd_def]
  rw [Ideal.hostReduceAdd_single reducesTo_S128x128_S128_d0 (by decide)]
  show Ideal.ofBits .f32 0x00000000#32 + _ = _
  rw [Ideal.ofBits_zero_f32, zero_add]
  exact Finset.sum_congr rfl fun o' _ => congrArg W (funext fun a => Fin.ext (by
    match a with | ⟨0, _⟩ => rfl | ⟨1, _⟩ => rfl))

/-- A sum over the indices of a vector of `n` entries is the sum over its `n` coordinates. -/
theorem sum_idx1 {n : Nat} (f : (⟨1, ![n]⟩ : Shape).Idx → EReal) : ∑ i, f i = ∑ o : Fin n, f (ix1 o) :=
  Fintype.sum_equiv ⟨fun i => i 0, ix1, fun i => (eq_ix1 i).symm, fun _ => rfl⟩ f (fun o => f (ix1 o))
    (fun i => congrArg f (eq_ix1 i))

/-- The sum of the 128 biases, as the host forms it: a sum over every index of the vector. -/
theorem biassum_apply (B : S128.Idx → EReal) :
    Host.reduceAdd (F := Ideal) (φ := .f32) B (constant (F := Ideal) S_ .f32 0x00000000#32) reducesTo_S128_S_d0 h_S_ ix0
      = ∑ o' : Fin 128, B (ix1 o') := by
  simp only [Host.reduceAdd, Ideal.hostReduceAdd_def]
  rw [Ideal.hostReduceAdd_total reducesTo_S128_S_d0 (fun b => b.elim0)]
  show Ideal.ofBits .f32 0x00000000#32 + _ = _
  rw [Ideal.ofBits_zero_f32, zero_add]
  exact sum_idx1 B

variable (m : (ℓ : Loc nD τ sig) → Buf (Elt Ideal) ℓ) (c : Dev nD)

/-- THE CENTRED WEIGHTS at `(o, k)`: the weight less its column's sum over the outputs divided by `128`. -/
theorem weights_apply (o k : Fin 128) :
    (V m c main_v6 : S128x128.Idx → EReal) (ix2 o k)
      = mat (m ((c : Thread nD τ).loc main_arg2)) o k
          - Ideal.div (∑ o' : Fin 128, mat (m ((c : Thread nD τ).loc main_arg2)) o' k) (Ideal.ofBits .f32 0x43000000#32) := by
  have e : (V m c main_v6 : S128x128.Idx → EReal)
      = truncf .bf16 (subf (m ((c : Thread nD τ).loc main_arg2)) (broadcastInDim S128x128 ![0, 1] bcast_S1x128_S128x128_0_1
          (Host.divf (broadcastInDim S1x128 ![1] bcast_S128_S1x128_1
              (Host.reduceAdd (m ((c : Thread nD τ).loc main_arg2)) (constant (F := Ideal) S_ .f32 0x00000000#32) reducesTo_S128x128_S128_d0 h_S_))
            (broadcastInDim S1x128 ![] bcast_S_S1x128 (constant (F := Ideal) S_ .f32 0x43000000#32))))) bitsLt_bf16_f32 := by
    dsimp only [Gen.V, Gen.hostOps0]; after_results; all_goals rfl
  rw [e]
  refine congrArg (mat (m ((c : Thread nD τ).loc main_arg2)) o k - ·) ?_
  refine (broadcastInDim_apply _ bcast_S1x128_S128x128_0_1 _ (ix2 o k) (ix2 (0 : Fin 1) k) (fun a => match a with
    | ⟨0, _⟩ => by show 0 = if (1 : Nat) = 1 then 0 else o.val; rw [if_pos rfl]
    | ⟨1, _⟩ => by show k.val = if (128 : Nat) = 1 then 0 else k.val; rw [if_neg (by decide)])).trans ?_
  refine congr (congrArg Ideal.div ?_) ?_
  · refine (broadcastInDim_apply _ bcast_S128_S1x128_1 _ (ix2 (0 : Fin 1) k) (ix1 k) (fun a => match a with
      | ⟨0, _⟩ => by show k.val = if (128 : Nat) = 1 then 0 else k.val; rw [if_neg (by decide)])).trans ?_
    exact colsum_apply _ k
  · exact broadcastInDim_apply _ bcast_S_S1x128 _ (ix2 (0 : Fin 1) k) ix0 (fun a => a.elim0)

/-- THE CENTRED BIAS, a row, at `(0, q)`: the bias less the biases' sum divided by `128`. -/
theorem bias_apply (q : Fin 128) :
    (V m c main_v11 : S1x128.Idx → EReal) (ix2 (0 : Fin 1) q)
      = vec (m ((c : Thread nD τ).loc main_arg3)) q
          - Ideal.div (∑ o' : Fin 128, vec (m ((c : Thread nD τ).loc main_arg3)) o') (Ideal.ofBits .f32 0x43000000#32) := by
  have e : (V m c main_v11 : S1x128.Idx → EReal)
      = shapeCast S1x128 (subf (m ((c : Thread nD τ).loc main_arg3)) (broadcastInDim S128 ![] bcast_S_S128
          (Host.divf (Host.reduceAdd (m ((c : Thread nD τ).loc main_arg3)) (constant (F := Ideal) S_ .f32 0x00000000#32) reducesTo_S128_S_d0 h_S_)
            (constant (F := Ideal) S_ .f32 0x43000000#32)))) shapeCasts_S128_S1x128 := by
    dsimp only [Gen.V, Gen.hostOps0]; after_results; all_goals rfl
  rw [e]
  refine (shapeCast_a_1a_apply _ _ (0 : Fin 1) q).trans ?_
  refine congrArg (vec (m ((c : Thread nD τ).loc main_arg3)) q - ·) ?_
  refine (broadcastInDim_apply _ bcast_S_S128 _ (ix1 q) ix0 (fun a => a.elim0)).trans ?_
  exact congrArg (Ideal.div · (Ideal.ofBits .f32 0x43000000#32)) (biassum_apply _)

/-- The scale, a row, at `(0, q)`. -/
theorem scale_apply (q : Fin 128) :
    (V m c main_v12 : S1x128.Idx → EReal) (ix2 (0 : Fin 1) q) = vec (m ((c : Thread nD τ).loc main_arg4)) q := by
  have e : (V m c main_v12 : S1x128.Idx → EReal) = shapeCast S1x128 (m ((c : Thread nD τ).loc main_arg4)) shapeCasts_S128_S1x128 := by
    dsimp only [Gen.V, Gen.hostOps0]; after_results; all_goals rfl
  rw [e]
  exact shapeCast_a_1a_apply _ _ (0 : Fin 1) q

/-- The shift, a row, at `(0, q)`. -/
theorem shift_apply (q : Fin 128) :
    (V m c main_v13 : S1x128.Idx → EReal) (ix2 (0 : Fin 1) q) = vec (m ((c : Thread nD τ).loc main_arg5)) q := by
  have e : (V m c main_v13 : S1x128.Idx → EReal) = shapeCast S1x128 (m ((c : Thread nD τ).loc main_arg5)) shapeCasts_S128_S1x128 := by
    dsimp only [Gen.V, Gen.hostOps0]; after_results; all_goals rfl
  rw [e]
  exact shapeCast_a_1a_apply _ _ (0 : Fin 1) q

end Cert.KernelIdeal.HostSide

end
-- ==== Proof.Blocks.lean ====
/-
  From blocks of rows to the whole array: after the kernel has run, its result array holds, at every entry `(n, o)`,
  row `n` of the input centred with the centring folded into the weights and the bias, normalised, at `o`.

  The kernel visits 125 grid points. At point `t` it reads rows `8000 t … 8000 t + 7999` of the input, the whole
  centred weights, and the centred bias, the scale and the shift as rows, and writes back the same rows of the result.
  The value stored at entry `(p, q)` of the block is a function of row `p` of the block alone, and row `p` of block `t`
  is row `8000 t + p` of the array; the small operands' blocks are the whole of their arrays. So what point `t`
  writes back is block `t` of ONE function of the arguments. The 125 blocks cover every row (row `r` is in block
  `r / 8000`), so the array ends holding that function. Where the input, the weights and the bias are real numbers
  the folded centring is the plain one, and the function is the specification's `result`.
-/
import proofs.«157562_j49752901157256_2_alg».proof.Proof.Spec
import proofs.«157562_j49752901157256_2_alg».proof.Proof.KernelBody
import proofs.«157562_j49752901157256_2_alg».proof.Proof.HostSide
import proofs.«157562_j49752901157256_2_alg».proof.Proof.Gen.KernelIdeal.Value
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.RowNorm
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block indices at each of the 125 points, decided: the input's and the result's blocks are block `t` of the
    rows and the only block of the columns; every small operand has one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of block `t` is row `8000 t + p` of the array. -/
def rowOf (t : Fin cfg0.N) (p : Fin 8000) : Fin 1000000 :=
  ⟨t.val * 8000 + p.val, by have := t.isLt; have hN : cfg0.N = 125 := N_0; have := p.isLt; omega⟩

/-- The array the run leaves: every row of the input centred through the folded weights and bias, normalised. -/
def folded (c : Dev nD) : S1000000x128.Idx → EReal := fun i =>
  normRow (cenFolded (row (m ((c : Thread nD τ).loc main_arg0)) (i 0)) (mat (m ((c : Thread nD τ).loc main_arg2))) (vec (m ((c : Thread nD τ).loc main_arg3)))) (vec (m ((c : Thread nD τ).loc main_arg4))) (vec (m ((c : Thread nD τ).loc main_arg5))) (i 1)

/-! ## Each window's block at a point, read off its array -/

/-- The five input blocks at point `t`, typed as arrays of extended reals of their literal shapes. -/
abbrev xblk (c : Dev nD) (t : Fin cfg0.N) : FVec Ideal S8000x128 .f32 := iblk m c 0 t
abbrev wblk (c : Dev nD) (t : Fin cfg0.N) : FVec Ideal S128x128 .bf16 := iblk m c 1 t
abbrev bblk (c : Dev nD) (t : Fin cfg0.N) : FVec Ideal S1x128 .f32 := iblk m c 2 t
abbrev gblk (c : Dev nD) (t : Fin cfg0.N) : FVec Ideal S1x128 .f32 := iblk m c 3 t
abbrev sblk (c : Dev nD) (t : Fin cfg0.N) : FVec Ideal S1x128 .f32 := iblk m c 4 t

theorem blk_input (c : Dev nD) (t : Fin cfg0.N) (p : Fin 8000) (k : Fin 128) :
    xblk m c t (ix2 p k) = row (m ((c : Thread nD τ).loc main_arg0)) (rowOf t p) k := by
  obtain ⟨e0, e1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 8000 + 1 * p.val = t.val * 8000 + p.val; omega
  | ⟨1, _⟩ => show win0_0.index t (1 : Fin 2) * 128 + 1 * k.val = k.val; omega

theorem blk_weights (c : Dev nD) (t : Fin cfg0.N) (o k : Fin 128) :
    wblk m c t (ix2 o k) = (V m c main_v6 : S128x128.Idx → EReal) (ix2 o k) := by
  obtain ⟨-, -, e2, e3, -⟩ := idx_facts t
  show V m c main_v6 (((cfg0.win 1).blk t).view.emb (ix2 o k)) = _
  refine congrArg _ (funext fun a => Fin.ext ?_)
  match a with
  | ⟨0, _⟩ => show win0_1.index t (0 : Fin 2) * 128 + 1 * o.val = o.val; omega
  | ⟨1, _⟩ => show win0_1.index t (1 : Fin 2) * 128 + 1 * k.val = k.val; omega

theorem blk_bias (c : Dev nD) (t : Fin cfg0.N) (q : Fin 128) :
    bblk m c t (ix2 (0 : Fin 1) q) = (V m c main_v11 : S1x128.Idx → EReal) (ix2 (0 : Fin 1) q) := by
  obtain ⟨-, -, -, -, e4, e5, -⟩ := idx_facts t
  show V m c main_v11 (((cfg0.win 2).blk t).view.emb (ix2 (0 : Fin 1) q)) = _
  refine congrArg _ (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

theorem blk_scale (c : Dev nD) (t : Fin cfg0.N) (q : Fin 128) :
    gblk m c t (ix2 (0 : Fin 1) q) = (V m c main_v12 : S1x128.Idx → EReal) (ix2 (0 : Fin 1) q) := by
  obtain ⟨-, -, -, -, -, -, e6, e7, -⟩ := idx_facts t
  show V m c main_v12 (((cfg0.win 3).blk t).view.emb (ix2 (0 : Fin 1) q)) = _
  refine congrArg _ (funext fun a => Fin.ext ?_)
  match a with
  | ⟨0, _⟩ => show win0_3.index t (0 : Fin 2) * 1 + 1 * 0 = 0; omega
  | ⟨1, _⟩ => show win0_3.index t (1 : Fin 2) * 128 + 1 * q.val = q.val; omega

theorem blk_shift (c : Dev nD) (t : Fin cfg0.N) (q : Fin 128) :
    sblk m c t (ix2 (0 : Fin 1) q) = (V m c main_v13 : S1x128.Idx → EReal) (ix2 (0 : Fin 1) q) := by
  obtain ⟨-, -, -, -, -, -, -, -, e8, e9, -⟩ := idx_facts t
  show V m c main_v13 (((cfg0.win 4).blk t).view.emb (ix2 (0 : Fin 1) q)) = _
  refine congrArg _ (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-- Entry `(p, q)` of the result's block at point `t` is entry `(8000 t + p, q)` of the result array. -/
theorem emb_out (t : Fin cfg0.N) (p : Fin 8000) (q : Fin 128) :
    ((cfg0.win 5).blk t).view.emb (ix2 p q) = ix2 (rowOf t p) q := by
  obtain ⟨-, -, -, -, -, -, -, -, -, -, e10, e11⟩ := idx_facts t
  funext a; apply Fin.ext
  match a with
  | ⟨0, _⟩ => show win0_5.index t (0 : Fin 2) * 8000 + 1 * p.val = t.val * 8000 + p.val; omega
  | ⟨1, _⟩ => show win0_5.index t (1 : Fin 2) * 128 + 1 * q.val = q.val; omega

/-! ## What a point writes back, the cover, and the array -/

/-- WHAT POINT `t` WRITES BACK is block `t` of `folded`. -/
theorem flushed_eq (c : Dev nD) (t : Fin cfg0.N) :
    (dats m 0 c).flushed 5 t = ((cfg0.win 5).blk t).view.read (Elt Ideal) (folded m c) := by
  rw [Value.flushed5]
  unfold out0_5
  rw [View.canon_unit_zero hz]
  simp only [View.ld_unit_zero (S := S8000x128) hz, View.ld_unit_zero (S := S128x128) hz, View.ld_unit_zero (S := S1x128) hz]
  funext j
  obtain ⟨p, q, rfl⟩ : ∃ (p : Fin 8000) (q : Fin 128), j = ix2 p q := ⟨j 0, j 1, eq_ix2 j⟩
  show k0_pay1 (F := Ideal) (xblk m c t) (wblk m c t) (bblk m c t) (gblk m c t) (sblk m c t) (ix2 p q)
      = folded m c (((cfg0.win 5).blk t).view.emb (ix2 p q))
  refine (Body.pay_apply (xblk m c t) (wblk m c t) (bblk m c t) (gblk m c t) (sblk m c t) p q).trans ?_
  rw [emb_out]
  have hd : (fun o : Fin 128 => (∑ k : Fin 128, xblk m c t (ix2 p k) * wblk m c t (ix2 o k)) + bblk m c t (ix2 (0 : Fin 1) o))
      = cenFolded (row (m ((c : Thread nD τ).loc main_arg0)) (rowOf t p)) (mat (m ((c : Thread nD τ).loc main_arg2))) (vec (m ((c : Thread nD τ).loc main_arg3))) := funext fun o => by
    unfold cenFolded
    refine congr (congrArg HAdd.hAdd (Finset.sum_congr rfl fun k _ => ?_)) ?_
    · exact congr (congrArg HMul.hMul (blk_input m c t p k))
        ((blk_weights m c t o k).trans (HostSide.weights_apply m c o k))
    · exact (blk_bias m c t o).trans (HostSide.bias_apply m c o)
  have hγ : (fun o : Fin 128 => gblk m c t (ix2 (0 : Fin 1) o)) = vec (m ((c : Thread nD τ).loc main_arg4)) :=
    funext fun o => (blk_scale m c t o).trans (HostSide.scale_apply m c o)
  have hβ : (fun o : Fin 128 => sblk m c t (ix2 (0 : Fin 1) o)) = vec (m ((c : Thread nD τ).loc main_arg5)) :=
    funext fun o => (blk_shift m c t o).trans (HostSide.shift_apply m c o)
  rw [hd, hγ, hβ]
  rfl

/-- An index of the result array is in point `t`'s block iff each coordinate is in the block's range on its axis. -/
theorem mem_blk (t : Fin cfg0.N) (i : S1000000x128.Idx) :
    i ∈ ((cfg0.win 5).blk t).view.set ↔ ∀ a : Fin 2, win0_5.index t a * S8000x128.size a ≤ (i a).val
      ∧ (i a).val < win0_5.index t a * S8000x128.size a + S8000x128.size a := by
  show i ∈ ((View.whole main_v14).slice (win0_5.rect t)).set ↔ _
  rw [View.set_slice_whole, Rect.mem_set_unit]
  exact Iff.rfl

/-- THE COVER: row `r` of the result is in the block of point `r / 8000`, and every point writes back. -/
theorem cover (i : S1000000x128.Idx) :
    ∃ t : Fin cfg0.N, (cfg0.win 5).flush t = true ∧ i ∈ ((cfg0.win 5).blk t).view.set := by
  have hN : cfg0.N = 125 := N_0
  have hi0 : (i 0).val < 1000000 := (i 0).isLt
  have hi1 : (i 1).val < 128 := (i 1).isLt
  have ht : (i 0).val / 8000 < cfg0.N := by omega
  refine ⟨⟨(i 0).val / 8000, ht⟩, flush0_5 _, ?_⟩
  obtain ⟨-, -, -, -, -, -, -, -, -, -, e10, e11⟩ := idx_facts ⟨(i 0).val / 8000, ht⟩
  rw [mem_blk]
  intro a
  match a with
  | ⟨0, _⟩ =>
    show win0_5.index ⟨(i 0).val / 8000, ht⟩ (0 : Fin 2) * 8000 ≤ (i 0).val
      ∧ (i 0).val < win0_5.index ⟨(i 0).val / 8000, ht⟩ (0 : Fin 2) * 8000 + 8000
    have : (⟨(i 0).val / 8000, ht⟩ : Fin cfg0.N).val = (i 0).val / 8000 := rfl
    omega
  | ⟨1, _⟩ =>
    show win0_5.index ⟨(i 0).val / 8000, ht⟩ (1 : Fin 2) * 128 ≤ (i 1).val
      ∧ (i 1).val < win0_5.index ⟨(i 0).val / 8000, ht⟩ (1 : Fin 2) * 128 + 128
    omega

/-- THE ARRAY after the run is `folded`. -/
theorem final (c : Dev nD) : (dats m 0 c).arrAt 5 cfg0.N = folded m c :=
  (dats m 0 c).arrAt_eq_of_cover 5 (folded m c) (fun t _ => flushed_eq m c t) cover

/-- Where the input, the weights and the bias hold real numbers, `folded` is the specification's `result`: row by
    row the folded centring is the plain one. -/
theorem folded_eq (c : Dev nD) (hx : ∀ i, ∃ r : ℝ, ((m ((c : Thread nD τ).loc main_arg0)) : S1000000x128.Idx → EReal) i = (r : EReal))
    (hW : ∀ i, ∃ r : ℝ, ((m ((c : Thread nD τ).loc main_arg2)) : S128x128.Idx → EReal) i = (r : EReal)) (hb : ∀ i, ∃ r : ℝ, ((m ((c : Thread nD τ).loc main_arg3)) : S128.Idx → EReal) i = (r : EReal)) :
    folded m c = result (m ((c : Thread nD τ).loc main_arg0)) (m ((c : Thread nD τ).loc main_arg2)) (m ((c : Thread nD τ).loc main_arg3)) (m ((c : Thread nD τ).loc main_arg4)) (m ((c : Thread nD τ).loc main_arg5)) := by
  funext i
  exact congrArg (fun d => normRow d (vec (m ((c : Thread nD τ).loc main_arg4))) (vec (m ((c : Thread nD τ).loc main_arg5))) (i 1))
    (cen_eq (row (m ((c : Thread nD τ).loc main_arg0)) (i 0)) (mat (m ((c : Thread nD τ).loc main_arg2))) (vec (m ((c : Thread nD τ).loc main_arg3))) (fun k => hx _) (fun o k => hW _) (fun o => hb _))

/-- THE KERNEL'S RUN: every weakly fair execution terminates with the result array at `folded` of the arguments and
    the arguments unchanged. -/
theorem run : θ_run defs (onTc (τ := τ) (main (F := Ideal))) ⟨m, fun _ => 0, ρ⟩ fun r => ∀ c : Dev nD,
      r.2.mem ((c : Thread nD τ).loc main_v14) = folded m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Blocks

end
-- ==== Proof.lean ====
/-
  Row-wise layer normalisation of a linear layer with a leaky rectifier: a kernel that folds the centring into the
  weights and the bias, against a reference that centres each row of the linear layer's output.

  Both programs, read on the extended reals, end with one array: at `(n, o)`, row `n` of the linear layer's output
  less its mean, times the reciprocal square root of the mean of the centred row's squares plus `ε`, times the scale at
  `o`, plus the shift at `o`, kept where that is at least zero and multiplied by `0.2` elsewhere. The reference
  computes exactly this. The kernel's host side subtracts from each weight its column's mean over the outputs and from
  each bias the biases' mean, and the kernel multiplies blocks of 8000 rows against those; its centred row is
  `∑ k, x k * (W o k - mean_o' W o' k) + (b o - mean b)`, which is the reference's `h o - mean h` whenever the input,
  the weights and the bias are real numbers — the precondition. A change of float format is the identity on the
  extended reals, so the kernel's narrowing of both matrix operands changes nothing here; the divisor `128`, `ε` and
  the slope `0.2` are the same patterns on both sides.

  The three frames: the kernel's two are its frame run; the reference's is its run with the result dropped. The
  idealization rewrote no operation, so there is nothing to preserve. The algebraic claim takes the kernel's run at
  the folded form, turns it into the plain form under the precondition, and sets it beside the reference's run.
-/
import proofs.«157562_j49752901157256_2_alg».proof.Defs
import proofs.«157562_j49752901157256_2_alg».proof.Proof.Gen.Kernel
import proofs.«157562_j49752901157256_2_alg».proof.Proof.Gen.Kernel.Frame
import proofs.«157562_j49752901157256_2_alg».proof.Proof.Gen.KernelIdeal
import proofs.«157562_j49752901157256_2_alg».proof.Proof.Gen.KernelIdeal.Frame
import proofs.«157562_j49752901157256_2_alg».proof.Proof.Gen.KernelIdeal.Value
import proofs.«157562_j49752901157256_2_alg».proof.Proof.Gen.ReferenceIdeal
import proofs.«157562_j49752901157256_2_alg».proof.Proof.Gen.ReferenceIdeal.Run
import proofs.«157562_j49752901157256_2_alg».proof.Proof.Gen.ReferenceIdeal.Read
import proofs.«157562_j49752901157256_2_alg».proof.Proof.Gen.Pre_finite_inputs
import proofs.«157562_j49752901157256_2_alg».proof.Proof.Spec
import proofs.«157562_j49752901157256_2_alg».proof.Proof.Finite
import proofs.«157562_j49752901157256_2_alg».proof.Proof.RefValue
import proofs.«157562_j49752901157256_2_alg».proof.Proof.Blocks
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- The two idealized programs, from memories agreeing on the arguments, end with the specification's `result` of
    the kernel's arguments: the kernel by its run at the folded form and the law under the precondition, the
    reference by its run and the agreement of the arguments. -/
theorem algebraic : Cert.algebraic_KernelIdeal_ReferenceIdeal := by
  intro m ρ m' ρ' hpre hagree
  refine ⟨fun c => Cert.RowNorm.result (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.Blocks.run m ρ)
    obtain ⟨hx, hW, hb⟩ := Cert.RowNorm.Finite.reals_of_pre _ _ _ _ _ _ (hpre c)
    exact Cert.KernelIdeal.Blocks.folded_eq m c hx hW hb
  · refine (θ_run Cert.ReferenceIdeal.defs _ _).mono (fun r h c => ⟨?_, (h c).2⟩)
      (Cert.ReferenceIdeal.Value.run (F := Ideal) m' ρ')
    rw [(h c).1, Cert.ReferenceIdeal.Read.val_main_v32_eq, Cert.ReferenceIdeal.RefValue.stage_eq,
      (hagree c).1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
